-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S100000x64 : Shape := ⟨2, ![100000, 64]⟩
abbrev S1250000 : Shape := ⟨1, ![1250000]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S1250000 : S_.BroadcastsInDim S1250000 (![] : Fin 0 → Fin S1250000.rank)
  reducesTo_S1250000_S_d0 : S1250000.ReducesTo [0] S_

variable [Facts]

def fn {F : FTy → Type} [FloatOps F] (main_arg0 : FVec F S200000x64 .f32) (main_arg1 : FVec F S100000x64 .f32) (main_arg2 : IVec S1250000 32) (main_arg3 : IVec S1250000 32) (main_arg4 : FVec F S1250000 .f32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S1250000 .f32 := Host.absf main_arg4
  let main_cst_2 : FVec F S_ .f32 := constant S_ .f32 0x7F800000#32
  let main_v10 : FVec F S1250000 .f32 := broadcastInDim S1250000 ![] bcast_S_S1250000 main_cst_2
  let main_v11 : IVec S1250000 1 := cmpf .olt main_v9 main_v10
  let main_c_3 : IVec S_ 1 := constantI S_ 1 1#1
  let main_v12 : IVec S_ 1 := (fun x v => Host.reduce IntOp.andi x v reducesTo_S1250000_S_d0 h_S_) main_v11 main_c_3
  let main_v13 : IVec S_ 1 := andi main_v8 main_v12
  main_v13
-- ==== Kernel.lean ====
abbrev S200000x64 : Shape := ⟨2, ![200000, 64]⟩
abbrev S100000x64 : Shape := ⟨2, ![100000, 64]⟩
abbrev S1250000 : Shape := ⟨1, ![1250000]⟩
abbrev S300000x64 : Shape := ⟨2, ![300000, 64]⟩
abbrev S_ : Shape := ⟨0, ![]⟩
abbrev S1250000x1 : Shape := ⟨2, ![1250000, 1]⟩
abbrev S1250000x64 : Shape := ⟨2, ![1250000, 64]⟩
abbrev S12000x64 : Shape := ⟨2, ![12000, 64]⟩
abbrev S12000 : Shape := ⟨1, ![12000]⟩
abbrev S12000x1 : Shape := ⟨2, ![12000, 1]⟩

abbrev nBuf : Space → Nat
  | .hbm => 23
  | .vmem => 4
  | .smem => 0
  | _ => 0

abbrev bufTy : (tb : Table) → Fin (tcTables nBuf tb) → BufTy
  | .hbm, ⟨0, _⟩ => ⟨S200000x64, .f32⟩
  | .hbm, ⟨1, _⟩ => ⟨S100000x64, .f32⟩
  | .hbm, ⟨2, _⟩ => ⟨S1250000, .i32⟩
  | .hbm, ⟨3, _⟩ => ⟨S1250000, .i32⟩
  | .hbm, ⟨4, _⟩ => ⟨S1250000, .f32⟩
  | .hbm, ⟨5, _⟩ => ⟨S300000x64, .f32⟩
  | .hbm, ⟨6, _⟩ => ⟨S_, .i32⟩
  | .hbm, ⟨7, _⟩ => ⟨S1250000, .i32⟩
  | .hbm, ⟨8, _⟩ => ⟨S1250000, .i1⟩
  | .hbm, ⟨9, _⟩ => ⟨S_, .i32⟩
  | .hbm, ⟨10, _⟩ => ⟨S1250000, .i32⟩
  | .hbm, ⟨11, _⟩ => ⟨S1250000, .i32⟩
  | .hbm, ⟨12, _⟩ => ⟨S1250000, .i32⟩
  | .hbm, ⟨13, _⟩ => ⟨S1250000x1, .i32⟩
  | .hbm, ⟨14, _⟩ => ⟨S1250000x64, .f32⟩
  | .hbm, ⟨15, _⟩ => ⟨S1250000x1, .f32⟩
  | .hbm, ⟨16, _⟩ => ⟨S1250000x64, .f32⟩
  | .hbm, ⟨17, _⟩ => ⟨S1250000x64, .f32⟩
  | .hbm, ⟨18, _⟩ => ⟨S_, .f32⟩
  | .hbm, ⟨19, _⟩ => ⟨S300000x64, .f32⟩
  | .hbm, ⟨20, _⟩ => ⟨S1250000x1, .i32⟩
  | .hbm, ⟨21, _⟩ => ⟨S300000x64, .f32⟩
  | .hbm, ⟨22, _⟩ => ⟨S300000x64, .f32⟩
  | .local _ .vmem, ⟨0, _⟩ => ⟨S12000x64, .f32⟩
  | .local _ .vmem, ⟨1, _⟩ => ⟨S12000x64, .f32⟩
  | .local _ .vmem, ⟨2, _⟩ => ⟨S12000x64, .f32⟩
  | .local _ .vmem, ⟨3, _⟩ => ⟨S12000x64, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  concatenates_S200000x64_S100000x64_S300000x64_d0 : Shape.Concatenates [S200000x64, S100000x64] S300000x64 0
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S1250000x1_S1250000x64_0_1 : S1250000x1.BroadcastsInDim S1250000x64 (![0, 1] : Fin 2 → Fin S1250000x64.rank)
  bcast_S_S300000x64 : S_.BroadcastsInDim S300000x64 (![] : Fin 0 → Fin S300000x64.rank)
  inb_S12000x64_S12000x64_0_0 : ∀ a, (![0, 0] : Fin 2 → Nat) a + S12000x64.size a ≤ S12000x64.size a
  h_S12000x64 : 0 < S12000x64.numel
  shapeCasts_S12000x64_S12000x64 : S12000x64.ShapeCasts S12000x64
  reduces_S12000x64_S12000 : S12000x64.Reduces [1] S12000
  shapeCasts_S12000_S12000x1 : S12000.ShapeCasts S12000x1
  broadcasts_S12000x1_S12000x64 : S12000x1.Broadcasts S12000x64
  gather_S300000x64_S1250000x1_S1250000x64_1_0_n_n_0_1_164_wf : GatherDims.WF S300000x64 S1250000x1 S1250000x64 [1] [0] [] [0] [] 1 ![1, 64]
  scatter_S300000x64_S1250000x1_S1250000x64_1_0_0_1_wf : ScatterDims.WF S300000x64 S1250000x1 S1250000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12000x64.size a ≤ S300000x64.size a
  hwx0_0 : ∀ i : grid0.Coords, EltTy.bits .f32 = 32 ∨ (Rect.block (s := S300000x64) S12000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S12000x64.size a ≤ S300000x64.size a
  hwx0_1 : ∀ i : grid0.Coords, EltTy.bits .f32 = 32 ∨ (Rect.block (s := S300000x64) S12000x64.size (cc0_transform_1 i) (hinb0_1 i)).WholeWords (EltTy.packing .f32)

variable [Facts₀]

def gather_S300000x64_S1250000x1_S1250000x64_1_0_n_n_0_1_164 : GatherDims S300000x64 S1250000x1 S1250000x64 where
  offsetDims := [1]
  collapsedSliceDims := [0]
  operandBatchingDims := []
  startIndicesBatchingDims := []
  startIndexMap := [0]
  indexVectorDim := 1
  sliceSizes := ![1, 64]
  wf := gather_S300000x64_S1250000x1_S1250000x64_1_0_n_n_0_1_164_wf
def scatter_S300000x64_S1250000x1_S1250000x64_1_0_0_1 : ScatterDims S300000x64 S1250000x1 S1250000x64 where
  updateWindowDims := [1]
  insertedWindowDims := [0]
  scatterDimsToOperandDims := [0]
  indexVectorDim := 1
  wf := scatter_S300000x64_S1250000x1_S1250000x64_1_0_0_1_wf

abbrev win0_0 : Pipeline.Window sig grid0 :=
  Pipeline.Window.ofSpec (Memref.whole main_v13) S12000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S12000x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S200000x64 : Shape := ⟨2, ![200000, 64]⟩
abbrev S100000x64 : Shape := ⟨2, ![100000, 64]⟩
abbrev S1250000 : Shape := ⟨1, ![1250000]⟩
abbrev S300000x64 : Shape := ⟨2, ![300000, 64]⟩
abbrev S_ : Shape := ⟨0, ![]⟩
abbrev S1250000x1 : Shape := ⟨2, ![1250000, 1]⟩
abbrev S1250000x64 : Shape := ⟨2, ![1250000, 64]⟩
abbrev S300000 : Shape := ⟨1, ![300000]⟩
abbrev S300000x1 : Shape := ⟨2, ![300000, 1]⟩

abbrev nBuf : Space → Nat
  | .hbm => 32
  | .vmem => 0
  | .smem => 0
  | _ => 0

abbrev bufTy : (tb : Table) → Fin (tcTables nBuf tb) → BufTy
  | .hbm, ⟨0, _⟩ => ⟨S200000x64, .f32⟩
  | .hbm, ⟨1, _⟩ => ⟨S100000x64, .f32⟩
  | .hbm, ⟨2, _⟩ => ⟨S1250000, .i32⟩
  | .hbm, ⟨3, _⟩ => ⟨S1250000, .i32⟩
  | .hbm, ⟨4, _⟩ => ⟨S1250000, .f32⟩
  | .hbm, ⟨5, _⟩ => ⟨S300000x64, .f32⟩
  | .hbm, ⟨6, _⟩ => ⟨S_, .i32⟩
  | .hbm, ⟨7, _⟩ => ⟨S1250000, .i32⟩
  | .hbm, ⟨8, _⟩ => ⟨S1250000, .i1⟩
  | .hbm, ⟨9, _⟩ => ⟨S_, .i32⟩
  | .hbm, ⟨10, _⟩ => ⟨S1250000, .i32⟩
  | .hbm, ⟨11, _⟩ => ⟨S1250000, .i32⟩
  | .hbm, ⟨12, _⟩ => ⟨S1250000, .i32⟩
  | .hbm, ⟨13, _⟩ => ⟨S1250000x1, .i32⟩
  | .hbm, ⟨14, _⟩ => ⟨S1250000x64, .f32⟩
  | .hbm, ⟨15, _⟩ => ⟨S1250000x1, .f32⟩
  | .hbm, ⟨16, _⟩ => ⟨S1250000x64, .f32⟩
  | .hbm, ⟨17, _⟩ => ⟨S1250000x64, .f32⟩
  | .hbm, ⟨18, _⟩ => ⟨S_, .f32⟩
  | .hbm, ⟨19, _⟩ => ⟨S300000x64, .f32⟩
  | .hbm, ⟨20, _⟩ => ⟨S1250000x1, .i32⟩
  | .hbm, ⟨21, _⟩ => ⟨S300000x64, .f32⟩
  | .hbm, ⟨22, _⟩ => ⟨S300000x64, .f32⟩
  | .hbm, ⟨23, _⟩ => ⟨S_, .f32⟩
  | .hbm, ⟨24, _⟩ => ⟨S300000, .f32⟩
  | .hbm, ⟨25, _⟩ => ⟨S300000x1, .f32⟩
  | .hbm, ⟨26, _⟩ => ⟨S300000x1, .f32⟩
  | .hbm, ⟨27, _⟩ => ⟨S_, .f32⟩
  | .hbm, ⟨28, _⟩ => ⟨S300000x1, .f32⟩
  | .hbm, ⟨29, _⟩ => ⟨S300000x1, .f32⟩
  | .hbm, ⟨30, _⟩ => ⟨S300000x64, .f32⟩
  | .hbm, ⟨31, _⟩ => ⟨S300000x64, .f32⟩
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_cst : Ref sig .tc := ⟨.hbm, 23, rfl⟩
abbrev main_call0_v1 : Ref sig .tc := ⟨.hbm, 24, rfl⟩
abbrev main_call0_v2 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩

abbrev nD : Nat := 1
abbrev τ : Topo := Topo.v7x

variable {F : FTy → Type} [FloatOps F]

class Facts₀ : Prop where
  concatenates_S200000x64_S100000x64_S300000x64_d0 : Shape.Concatenates [S200000x64, S100000x64] S300000x64 0
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S1250000x1_S1250000x64_0_1 : S1250000x1.BroadcastsInDim S1250000x64 (![0, 1] : Fin 2 → Fin S1250000x64.rank)
  bcast_S_S300000x64 : S_.BroadcastsInDim S300000x64 (![] : Fin 0 → Fin S300000x64.rank)
  reducesTo_S300000x64_S300000_d1 : S300000x64.ReducesTo [1] S300000
  h_S_ : 0 < S_.numel
  bcast_S300000_S300000x1_0 : S300000.BroadcastsInDim S300000x1 (![0] : Fin 1 → Fin S300000x1.rank)
  bcast_S_S300000x1 : S_.BroadcastsInDim S300000x1 (![] : Fin 0 → Fin S300000x1.rank)
  bcast_S300000x1_S300000x64_0_1 : S300000x1.BroadcastsInDim S300000x64 (![0, 1] : Fin 2 → Fin S300000x64.rank)
  gather_S300000x64_S1250000x1_S1250000x64_1_0_n_n_0_1_164_wf : GatherDims.WF S300000x64 S1250000x1 S1250000x64 [1] [0] [] [0] [] 1 ![1, 64]
  scatter_S300000x64_S1250000x1_S1250000x64_1_0_0_1_wf : ScatterDims.WF S300000x64 S1250000x1 S1250000x64 [1] [0] [0] 1

variable [Facts₀]

def gather_S300000x64_S1250000x1_S1250000x64_1_0_n_n_0_1_164 : GatherDims S300000x64 S1250000x1 S1250000x64 where
  offsetDims := [1]
  collapsedSliceDims := [0]
  operandBatchingDims := []
  startIndicesBatchingDims := []
  startIndexMap := [0]
  indexVectorDim := 1
  sliceSizes := ![1, 64]
  wf := gather_S300000x64_S1250000x1_S1250000x64_1_0_n_n_0_1_164_wf
def scatter_S300000x64_S1250000x1_S1250000x64_1_0_0_1 : ScatterDims S300000x64 S1250000x1 S1250000x64 where
  updateWindowDims := [1]
  insertedWindowDims := [0]
  scatterDimsToOperandDims := [0]
  indexVectorDim := 1
  wf := scatter_S300000x64_S1250000x1_S1250000x64_1_0_0_1_wf

class Facts : Prop extends Facts₀ where

variable [Facts]
-- ==== Proof.L2Rows.lean ====
/-
  Row-wise L2 normalisation over the extended reals.

  For an array `A` of `R` rows and 64 columns, row `r` is divided, entry by entry, by
  `max (sqrt (∑ k, A r k * A r k)) ε`: the row's Euclidean norm, kept away from zero by a floor `ε`.
  The floor is left as the binary word of the float it was written as, since both programs carry the
  same word; nothing here depends on its value.  All operations are the exact ones on the extended
  reals: the quotient `Ideal.div`, the square root `Ideal.sqrt`, and `max`.

  `normalizeRows` is stated for any number of rows, so that the same function describes a whole array
  and one block of rows of it; `normalizeRows_rows` says that normalising commutes with taking a
  block of consecutive rows: row `r` of the block starting at row `b` is row `b + r` of the array.
-/
import Idealize.ShloMosaic.PureOps.Ideal
import Idealize.ShloMosaic.Lib.ValueIdx

noncomputable section

namespace Cert.L2Rows

open Idealize.ShloMosaic Idealize.ShloMosaic.ValueIdx

/-- The floor under the norm: the float32 word `0x2B8CBCCC` (about 1e-12), read as an extended real. -/
def floor : EReal := Ideal.ofBits .f32 0x2B8CBCCC#32

/-- The sum of the squares of row `r`. -/
def rowSumSq {R : Nat} (A : (⟨2, ![R, 64]⟩ : Shape).Idx → EReal) (r : Fin R) : EReal :=
  ∑ k : Fin 64, A (ix2 r k) * A (ix2 r k)

/-- What row `r` is divided by: its Euclidean norm, or the floor if that is larger. -/
def rowDenom {R : Nat} (A : (⟨2, ![R, 64]⟩ : Shape).Idx → EReal) (r : Fin R) : EReal :=
  max (Ideal.sqrt (rowSumSq A r)) floor

/-- Every row divided by its own denominator. -/
def normalizeRows {R : Nat} (A : (⟨2, ![R, 64]⟩ : Shape).Idx → EReal) : (⟨2, ![R, 64]⟩ : Shape).Idx → EReal :=
  fun i => Ideal.div (A i) (rowDenom A (i 0))

theorem normalizeRows_apply {R : Nat} (A : (⟨2, ![R, 64]⟩ : Shape).Idx → EReal) (r : Fin R) (j : Fin 64) :
    normalizeRows A (ix2 r j) = Ideal.div (A (ix2 r j)) (max (Ideal.sqrt (∑ k : Fin 64, A (ix2 r k) * A (ix2 r k))) floor) := rfl

/-- Normalising a block of rows of `A` is reading the normalised `A` at those rows: if `B` holds, at
    `(r, j)`, the entry of `A` at `(row r, j)`, then the normalised `B` at `(r, j)` is the normalised `A`
    at `(row r, j)`.  (A row's denominator only depends on that row.) -/
theorem normalizeRows_rows {R R' : Nat} (A : (⟨2, ![R, 64]⟩ : Shape).Idx → EReal)
    (B : (⟨2, ![R', 64]⟩ : Shape).Idx → EReal) (row : Fin R' → Fin R)
    (hB : ∀ (r : Fin R') (j : Fin 64), B (ix2 r j) = A (ix2 (row r) j)) (r : Fin R') (j : Fin 64) :
    normalizeRows B (ix2 r j) = normalizeRows A (ix2 (row r) j) := by
  rw [normalizeRows_apply, normalizeRows_apply, hB r j]
  congr 3
  exact Finset.sum_congr rfl fun k _ => by rw [hB r k]

end Cert.L2Rows

end
-- ==== Proof.BlockNorm.lean ====
/-
  What the kernel body leaves in one output block, at the ideal instance.

  The body loads a block `P` of 12000 rows by 64 columns, squares it entry by entry, sums each row
  over its 64 lanes, takes the square root, takes the maximum with the floor, and divides the loaded
  block by the result, broadcast back along the lanes.  The generated value module already reads the
  body's one store as an index-by-index function `E1 P` of the loaded block, the lane sum kept whole.
  Here the lane sum is opened as a finite sum over the row (exact addition on the extended reals has
  no order), and `E1 P` is recognised as `L2Rows.normalizeRows P`: every row of the block divided by
  `max (sqrt (sum of its squares)) floor`.
-/
import proofs.«115462_j7146825581232_1_alg».proof.Proof.Gen.KernelIdeal.Value
import proofs.«115462_j7146825581232_1_alg».proof.Proof.L2Rows
import Idealize.ShloMosaic.PureOps.Ideal.Laws
import Idealize.ShloMosaic.Lib.Pipeline.Value
import Idealize.ShloMosaic.Lib.ValueIdx

noncomputable section

namespace Cert.KernelIdeal.BlockNorm

open Cert.KernelIdeal Cert.KernelIdeal.Gen Idealize.ShloMosaic Idealize.ShloMosaic.TcCoe Idealize.ShloMosaic.ValueIdx
open Cert.L2Rows

/-- The lane sum of the squared block at row `r` is the sum of the squares of that row's 64 entries. -/
theorem laneSum_eq (P : FVec Ideal S12000x64 .f32) (r : Fin 12000)
    (hcast : S12000x64.ShapeCasts S12000x64) (hacc : (0x00000000#32 : BitVec 32) = FKind.add.neutral .f32 (.inl rfl)) :
    multiReduction (F := Ideal) .add [1] S12000 (mulf (shapeCast S12000x64 P hcast) (shapeCast S12000x64 P hcast))
        0x00000000#32 reduces_S12000x64_S12000 (.inl rfl) hacc (ix1 r)
      = rowSumSq P r := by
  refine (Ideal.multiReduction_add_single _ _ reduces_S12000x64_S12000 (.inl rfl) hacc (ix1 r)).trans ?_
  rw [shapeCast_self]
  refine Finset.sum_congr rfl fun k _ => ?_
  show P _ * P _ = P (ix2 r k) * P (ix2 r k)
  have e : reduces_S12000x64_S12000.lift (ix1 r) k = ix2 r k :=
    funext fun a => Fin.ext (by match a with | ⟨0, _⟩ => rfl | ⟨1, _⟩ => rfl)
  rw [e]
  rfl

/-- The body's store, read at row `r` and lane `j` of the block, is the normalised block there. -/
theorem E1_apply (P : FVec Ideal S12000x64 .f32) (r : Fin 12000) (j : Fin 64) :
    Value.E1 (F := Ideal) P (ix2 r j) = normalizeRows P (ix2 r j) := by
  have e0 : Value.ix1_0 (ix2 r j : S12000x64.Idx) = ix2 r j :=
    funext fun a => Fin.ext (by match a with | ⟨0, _⟩ => rfl | ⟨1, _⟩ => rfl)
  have e1 : Value.ix1_1 (ix2 r j : S12000x64.Idx) = ix1 r :=
    funext fun a => Fin.ext (by match a with | ⟨0, _⟩ => rfl)
  rw [normalizeRows_apply]
  show Ideal.div (P (Value.ix1_0 (ix2 r j))) (max (Ideal.sqrt (multiReduction (F := Ideal) .add [1] S12000 _ 0x00000000#32 reduces_S12000x64_S12000 (.inl rfl) rfl (Value.ix1_1 (ix2 r j)))) (Ideal.ofBits .f32 0x2B8CBCCC#32)) = _
  rw [e0, e1, laneSum_eq P r shapeCasts_S12000x64_S12000x64 rfl]
  rfl

/-- So the body's store is the normalised block, as whole arrays. -/
theorem E1_eq (P : FVec Ideal S12000x64 .f32) : Value.E1 (F := Ideal) P = normalizeRows P := by
  funext y
  rw [eq_ix2 y]
  exact E1_apply P (y 0) (y 1)

end Cert.KernelIdeal.BlockNorm

end
-- ==== Proof.ArrayNorm.lean ====
/-
  The kernel's result array is the row-normalised aggregate.

  The region runs over 25 grid points; point `t` is handed rows `12000 t … 12000 t + 11999` of the
  aggregate (all 64 lanes), and writes back the same rows of the result.  A row's denominator depends
  on that row only, so what point `t` writes back — the normalised block — is the block of the
  normalised aggregate (`flushed_eq`).  The 25 blocks tile the 300000 rows (the point covering row `r`
  is `r / 12000`), so after the run the result array is `L2Rows.normalizeRows` of the aggregate as
  the region found it.
-/
import proofs.«115462_j7146825581232_1_alg».proof.Proof.Gen.KernelIdeal.Value
import proofs.«115462_j7146825581232_1_alg».proof.Proof.BlockNorm
import Idealize.ShloMosaic.Lib.Pipeline.Value
import Idealize.ShloMosaic.Lib.ValueIdx

noncomputable section

namespace Cert.KernelIdeal.ArrayNorm

open Cert.KernelIdeal Cert.KernelIdeal.Gen Idealize.ShloMosaic Idealize.ShloMosaic.TcCoe Idealize.SL.Sem
open Idealize.ShloMosaic.ValueIdx
open Idealize.ShloMosaic.Pipeline (Dat)
open Cert.L2Rows

variable (m : (ℓ : Loc nD τ sig) → Buf (Elt Ideal) ℓ) (ρ : Dev nD → PrngReg)

theorem zeroOffsets : (![0, 0] : Fin 2 → Nat) = fun _ => 0 := funext fun a => by fin_cases a <;> rfl

/-- Both windows move together: at point `t` each takes row block `t` and the one lane block. -/
theorem index_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The body's store on a block `B` that holds rows `12000 b …` of an array `X` is, at row `r` and lane `j`,
    the normalised `X` at row `12000 b + r`. -/
theorem out_rows (X : FVec Ideal S300000x64 .f32) (B : FVec Ideal S12000x64 .f32) (b : Nat) (hb : b < 25)
    (hB : ∀ (r : Fin 12000) (j : Fin 64), B (ix2 r j) = X (ix2 (⟨b * 12000 + r.val, by omega⟩ : Fin 300000) j))
    (r : Fin 12000) (j : Fin 64) :
    out0_1 (F := Ideal) B (ix2 r j) = normalizeRows X (ix2 (⟨b * 12000 + r.val, by omega⟩ : Fin 300000) j) := by
  unfold out0_1
  rw [View.ld_unit_zero (S := S12000x64) zeroOffsets, Value.canon1_eq, BlockNorm.E1_eq]
  exact normalizeRows_rows X B (fun r => ⟨b * 12000 + r.val, by omega⟩) hB r j

/-- The input window's block at point `t`, read off any array `X` of the aggregate's shape, holds rows
    `12000 t …` of `X`. -/
theorem read_in (X : FVec Ideal S300000x64 .f32) (t : Fin cfg0.N) (ht : t.val < 25) (r : Fin 12000) (j : Fin 64) :
    ((cfg0.win 0).blk t).view.read (Elt Ideal) X (ix2 r j)
      = X (ix2 (⟨t.val * 12000 + r.val, by omega⟩ : Fin 300000) j) := by
  obtain ⟨e00, e01, -, -⟩ := index_facts t
  rw [View.read_apply]
  show X (((cfg0.win 0).blk t).view.emb (ix2 r j)) = _
  refine congrArg X ?_
  funext a
  apply Fin.ext
  match a with
  | ⟨0, _⟩ => show win0_0.index t (0 : Fin 2) * 12000 + 1 * r.val = t.val * 12000 + r.val; omega
  | ⟨1, _⟩ => show win0_0.index t (1 : Fin 2) * 64 + 1 * j.val = j.val; omega

/-- For any array `X` of the aggregate's shape: the body's store on block `t` of `X`, as point `t` writes it
    back, is block `t` of the normalised `X`. -/
theorem point_eq (X : FVec Ideal S300000x64 .f32) (t : Fin cfg0.N) :
    (cfg0.win 1).cut (grid0.coords t) (out0_1 (((cfg0.win 0).blk t).view.read (Elt Ideal) X))
      = ((cfg0.win 1).blk t).view.read (Elt Ideal) (normalizeRows X) := by
  have hN : cfg0.N = 25 := N_0
  have ht : t.val < 25 := by have := t.isLt; omega
  obtain ⟨-, -, e10, e11⟩ := index_facts t
  funext y
  have hy0 : (y 0).val < 12000 := (y 0).isLt
  have hy1 : (y 1).val < 64 := (y 1).isLt
  have hx : (cfg0.win 1).xinj (grid0.coords t) y = ix2 (⟨(y 0).val, hy0⟩ : Fin 12000) (⟨(y 1).val, hy1⟩ : Fin 64) :=
    funext fun a => Fin.ext (by match a with | ⟨0, _⟩ => rfl | ⟨1, _⟩ => rfl)
  have hemb : ((cfg0.win 1).blk t).view.emb y
      = ix2 (⟨t.val * 12000 + (y 0).val, by omega⟩ : Fin 300000) (⟨(y 1).val, hy1⟩ : Fin 64) := by
    funext a
    apply Fin.ext
    match a with
    | ⟨0, _⟩ => show win0_1.index t (0 : Fin 2) * 12000 + 1 * (y 0).val = t.val * 12000 + (y 0).val; omega
    | ⟨1, _⟩ => show win0_1.index t (1 : Fin 2) * 64 + 1 * (y 1).val = (y 1).val; omega
  rw [View.read_apply]
  show out0_1 (((cfg0.win 0).blk t).view.read (Elt Ideal) X) ((cfg0.win 1).xinj (grid0.coords t) y)
    = normalizeRows X (((cfg0.win 1).blk t).view.emb y)
  rw [hx, hemb]
  exact out_rows X (((cfg0.win 0).blk t).view.read (Elt Ideal) X) t.val ht (fun r j => read_in X t ht r j)
    (⟨(y 0).val, hy0⟩ : Fin 12000) (⟨(y 1).val, hy1⟩ : Fin 64)

/-- What point `t` writes back is block `t` of the normalised aggregate (the aggregate being whatever the
    region finds in the input window's array: it enters only as a variable). -/
theorem flushed_eq (c : Dev nD) (t : Fin cfg0.N) :
    (dats m 0 c).flushed 1 t
      = ((cfg0.win 1).blk t).view.read (Elt Ideal) (normalizeRows (V m c (Pipeline.arrRef spec0 0))) := by
  rw [Value.flushed1]
  unfold iblk
  generalize V m c (Pipeline.arrRef spec0 0) = X
  exact point_eq X t

/-- An index of the result array is in point `t`'s block iff each coordinate is in the block's range. -/
theorem mem_blk (t : Fin cfg0.N) (i : S300000x64.Idx) :
    i ∈ ((cfg0.win 1).blk t).view.set ↔ ∀ a : Fin 2, win0_1.index t a * S12000x64.size a ≤ (i a).val
      ∧ (i a).val < win0_1.index t a * S12000x64.size a + S12000x64.size a := by
  show i ∈ ((View.whole main_v14).slice (win0_1.rect t)).set ↔ _
  rw [View.set_slice_whole, Rect.mem_set_unit]
  exact Iff.rfl

/-- The blocks tile the array: row `r` is in the block of point `r / 12000`. -/
theorem covered (i : S300000x64.Idx) :
    ∃ t : Fin cfg0.N, (cfg0.win 1).flush t = true ∧ i ∈ ((cfg0.win 1).blk t).view.set := by
  have hi0 : (i 0).val < 300000 := (i 0).isLt
  have hi1 : (i 1).val < 64 := (i 1).isLt
  have hN : cfg0.N = 25 := N_0
  obtain ⟨t, ht⟩ : ∃ t : Fin cfg0.N, t.val = (i 0).val / 12000 := ⟨⟨(i 0).val / 12000, by omega⟩, rfl⟩
  obtain ⟨-, -, e10, e11⟩ := index_facts t
  refine ⟨t, flush0_1 t, ?_⟩
  rw [mem_blk]
  intro a
  match a with
  | ⟨0, _⟩ =>
    show win0_1.index t (0 : Fin 2) * 12000 ≤ (i 0).val ∧ (i 0).val < win0_1.index t (0 : Fin 2) * 12000 + 12000
    omega
  | ⟨1, _⟩ =>
    show win0_1.index t (1 : Fin 2) * 64 ≤ (i 1).val ∧ (i 1).val < win0_1.index t (1 : Fin 2) * 64 + 64
    omega

/-- After the run the result array is the normalised aggregate. -/
theorem final (c : Dev nD) :
    (dats m 0 c).arrAt 1 cfg0.N = normalizeRows (V m c (Pipeline.arrRef spec0 0)) :=
  (dats m 0 c).arrAt_eq_of_cover 1 (normalizeRows (V m c (Pipeline.arrRef spec0 0)))
    (fun t _ => flushed_eq m c t) covered

/-- The run, read: the result array at the normalised aggregate, the arguments unchanged. -/
theorem run : θ_run defs (onTc (τ := τ) (main (F := Ideal))) ⟨m, fun _ => 0, ρ⟩ fun r => ∀ c : Dev nD,
      r.2.mem ((c : Thread nD τ).loc main_v14) = normalizeRows (V m c (Pipeline.arrRef spec0 0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.ArrayNorm

end
-- ==== Proof.RefNorm.lean ====
/-
  The reference's result is the row-normalised aggregate.

  The reference computes the aggregate (the scatter-add stage, `val_main_v13` of the arguments), and from
  it: the squares, their sum along each row starting from zero, the square root, the maximum with the
  floor, that column broadcast along the lanes, and the quotient of the aggregate by it.  Read at row
  `r` and lane `j` through the generated one-operation-at-a-time lemmas this is
  `agg r j / max (sqrt (0 + ∑ k, agg r k * agg r k)) floor`, and `0 + s = s` on the extended reals:
  the reference's result is `L2Rows.normalizeRows` of the aggregate.  The aggregate itself is never
  opened.
-/
import proofs.«115462_j7146825581232_1_alg».proof.Proof.Gen.ReferenceIdeal.Read
import proofs.«115462_j7146825581232_1_alg».proof.Proof.L2Rows
import Idealize.ShloMosaic.PureOps.Ideal.Laws
import Idealize.ShloMosaic.Lib.ValueIdx

noncomputable section

namespace Cert.ReferenceIdeal.RefNorm

open Cert.ReferenceIdeal Cert.ReferenceIdeal.Read Idealize.ShloMosaic Idealize.ShloMosaic.TcCoe Idealize.ShloMosaic.ValueIdx
open Cert.L2Rows

/-- The reference's result array is the aggregate with every row divided by `max (its norm) floor`. -/
theorem result_eq (x0 : (⟨S200000x64, .f32⟩ : BufTy).Contents (Elt Ideal)) (x1 : (⟨S100000x64, .f32⟩ : BufTy).Contents (Elt Ideal))
    (x2 x3 : (⟨S1250000, .i32⟩ : BufTy).Contents (Elt Ideal)) (x4 : (⟨S1250000, .f32⟩ : BufTy).Contents (Elt Ideal)) :
    val_main_v18 (F := Ideal) x0 x1 x2 x3 x4 = normalizeRows (val_main_v13 (F := Ideal) x0 x1 x2 x3 x4) := by
  funext i
  obtain ⟨r, j, rfl⟩ : ∃ (r : Fin 300000) (j : Fin 64), i = ix2 r j := ⟨i 0, i 1, eq_ix2 i⟩
  rw [normalizeRows_apply]
  rw [val_main_v18_apply, val_main_v17_apply, val_main_v16_apply, val_main_v14_apply, val_main_call0_v2_apply,
    val_main_call0_v1_apply, val_main_v15_apply, val_main_cst_1_apply, val_main_call0_cst_apply]
  -- the row the reduction runs over, lane by lane
  have ek : ∀ k : Fin 64, idx_main_call0_v1 (idx_main_call0_v2 (idx_main_v17 (ix2 r j : S300000x64.Idx))) k = ix2 r k :=
    fun k => funext fun a => Fin.ext (by match a with | ⟨0, _⟩ => rfl | ⟨1, _⟩ => rfl)
  have hsq : ∀ i : S300000x64.Idx, val_main_call0_v0 (F := Ideal) x0 x1 x2 x3 x4 i
      = val_main_v13 (F := Ideal) x0 x1 x2 x3 x4 i * val_main_v13 (F := Ideal) x0 x1 x2 x3 x4 i :=
    fun i => (val_main_call0_v0_apply x0 x1 x2 x3 x4 i).trans (Ideal.mulf_def _ _)
  have hsum : ∑ k : Fin 64, val_main_call0_v0 (F := Ideal) x0 x1 x2 x3 x4
        (idx_main_call0_v1 (idx_main_call0_v2 (idx_main_v17 (ix2 r j : S300000x64.Idx))) k)
      = ∑ k : Fin 64, val_main_v13 (F := Ideal) x0 x1 x2 x3 x4 (ix2 r k) * val_main_v13 (F := Ideal) x0 x1 x2 x3 x4 (ix2 r k) :=
    Finset.sum_congr rfl fun k _ => by rw [ek k, hsq]
  rw [hsum]
  generalize val_main_v13 (F := Ideal) x0 x1 x2 x3 x4 = A
  show Ideal.div (A (ix2 r j)) (max (Ideal.sqrt (Ideal.ofBits .f32 0x00000000#32 + ∑ k : Fin 64, A (ix2 r k) * A (ix2 r k)))
    (Ideal.ofBits .f32 0x2B8CBCCC#32)) = _
  rw [Ideal.ofBits_zero_f32, zero_add]
  rfl

end Cert.ReferenceIdeal.RefNorm

end
-- ==== Proof.HostAgg.lean ====
/-
  The aggregate the region finds is the reference's aggregate.

  Before the region, the kernel's program stacks the user rows above the item rows, wraps negative source
  indices by adding 300000, gathers one row per edge, scales it by the edge's weight, and adds the
  scaled rows into a zero array at the destination indices.  The reference starts with the very same
  operations, in the same order, with the same constants.  Here that aggregate is written once as a
  function `agg` of the five argument arrays (in the kernel program's own spelling of its operations);
  the contents of the input window's array when the region is entered are `agg` of the arguments as
  launched (`entry_eq`), and `agg` is the reference's scatter stage of the same arrays (`agg_eq_ref`).
  The gather and the scatter-add are never opened: they are the same function on both sides.
-/
import proofs.«115462_j7146825581232_1_alg».proof.Proof.Gen.KernelIdeal.Frame
import proofs.«115462_j7146825581232_1_alg».proof.Proof.Gen.ReferenceIdeal.Read
import Idealize.ShloMosaic.Lib.StableHlo.Run

noncomputable section

namespace Cert.KernelIdeal.HostAgg

open Cert.KernelIdeal Cert.KernelIdeal.Gen Idealize.ShloMosaic Idealize.ShloMosaic.TcCoe Idealize.SL.Sem
open Idealize.ShloMosaic.StableHlo

variable {F : FTy → Type} [FloatOps F]

/-- The edge-weighted aggregate: rows of the stacked embeddings gathered by source, scaled by the edge
    weight, and summed into their destination rows. -/
def agg (a0 : (⟨S200000x64, .f32⟩ : BufTy).Contents (Elt F)) (a1 : (⟨S100000x64, .f32⟩ : BufTy).Contents (Elt F))
    (a2 a3 : (⟨S1250000, .i32⟩ : BufTy).Contents (Elt F)) (a4 : (⟨S1250000, .f32⟩ : BufTy).Contents (Elt F)) :
    (⟨S300000x64, .f32⟩ : BufTy).Contents (Elt F) :=
  Host.scatterAdd scatter_S300000x64_S1250000x1_S1250000x64_1_0_0_1 (broadcastInDim S300000x64 ![] bcast_S_S300000x64 (constant S_ .f32 0x00000000#32)) (broadcastInDim S1250000x1 ![0] bcast_S1250000_S1250000x1_0 a3) (mulf (Host.gather gather_S300000x64_S1250000x1_S1250000x64_1_0_n_n_0_1_164 (concatenate S300000x64 0 [⟨S200000x64, a0⟩, ⟨S100000x64, a1⟩] concatenates_S200000x64_S100000x64_S300000x64_d0) (broadcastInDim S1250000x1 ![0] bcast_S1250000_S1250000x1_0 (select (cmpi .slt a2 (broadcastInDim S1250000 ![] bcast_S_S1250000 (constantI S_ 32 0#32))) (addi a2 (broadcastInDim S1250000 ![] bcast_S_S1250000 (constantI S_ 32 300000#32))) a2))) (broadcastInDim S1250000x64 ![0, 1] bcast_S1250000x1_S1250000x64_0_1 (broadcastInDim S1250000x1 ![0] bcast_S1250000_S1250000x1_0 a4)))

/-- When the region is entered, the input window's array holds the aggregate of the arguments as launched. -/
theorem entry_eq (m : (ℓ : Loc nD τ sig) → Buf (Elt F) ℓ) (c : Dev nD) :
    V m c (Pipeline.arrRef spec0 0)
      = agg (m ((c : Thread nD τ).loc main_arg0)) (m ((c : Thread nD τ).loc main_arg1)) (m ((c : Thread nD τ).loc main_arg2))
          (m ((c : Thread nD τ).loc main_arg3)) (m ((c : Thread nD τ).loc main_arg4)) := by
  show V m c main_v13 = _
  unfold agg
  dsimp only [V, hostOps0]
  after_results <;> rfl

end Cert.KernelIdeal.HostAgg

namespace Cert.KernelIdeal.HostAgg

open Idealize.ShloMosaic

variable {F : FTy → Type} [FloatOps F]

/-- The aggregate is the reference's scatter stage of the same five arrays: the same operations, one by one. -/
theorem agg_eq_ref (a0 : (⟨Cert.ReferenceIdeal.S200000x64, .f32⟩ : BufTy).Contents (Elt F))
    (a1 : (⟨Cert.ReferenceIdeal.S100000x64, .f32⟩ : BufTy).Contents (Elt F))
    (a2 a3 : (⟨Cert.ReferenceIdeal.S1250000, .i32⟩ : BufTy).Contents (Elt F))
    (a4 : (⟨Cert.ReferenceIdeal.S1250000, .f32⟩ : BufTy).Contents (Elt F)) :
    agg (F := F) a0 a1 a2 a3 a4 = Cert.ReferenceIdeal.Read.val_main_v13 (F := F) a0 a1 a2 a3 a4 := by
  unfold agg Cert.ReferenceIdeal.Read.val_main_v13 Cert.ReferenceIdeal.Read.val_main_v12 Cert.ReferenceIdeal.Read.val_main_v11
    Cert.ReferenceIdeal.Read.val_main_cst Cert.ReferenceIdeal.Read.val_main_v10 Cert.ReferenceIdeal.Read.val_main_v9
    Cert.ReferenceIdeal.Read.val_main_v8 Cert.ReferenceIdeal.Read.val_main_v7 Cert.ReferenceIdeal.Read.val_main_v6
    Cert.ReferenceIdeal.Read.val_main_v5 Cert.ReferenceIdeal.Read.val_main_v4 Cert.ReferenceIdeal.Read.val_main_v3
    Cert.ReferenceIdeal.Read.val_main_c_0 Cert.ReferenceIdeal.Read.val_main_v2 Cert.ReferenceIdeal.Read.val_main_v1
    Cert.ReferenceIdeal.Read.val_main_c Cert.ReferenceIdeal.Read.val_main_v0
  rfl

end Cert.KernelIdeal.HostAgg

end
-- ==== Proof.lean ====
/-
  Row-normalised edge-weighted aggregation: the kernel against its reference, over the extended reals.

  Both programs first form the same aggregate: the user rows stacked above the item rows, one row gathered
  per edge by its source index, scaled by the edge's weight, and added into the row of its destination
  index (300000 rows of 64 lanes).  They differ only in how each row is then divided by
  `max (its Euclidean norm) floor`: the kernel walks the rows in 25 blocks of 12000, summing the squares
  along the lanes inside each block; the reference does it in one pass over the whole array.

  A row's denominator depends on that row only, so normalising a block of rows is reading the normalised
  array at those rows (`L2Rows`).  What the kernel body stores for a block is the normalised block
  (`BlockNorm`); the 25 blocks tile the array, so the kernel's result is the normalised aggregate
  (`ArrayNorm`).  The reference's result, read one operation at a time, is the normalised aggregate as well,
  its sum of squares starting from a zero that adds nothing (`RefNorm`).  The aggregate found by the region is
  the reference's aggregate of the same arguments (`HostAgg`); the gather and the scatter-add are the same
  function on both sides and are never opened.  Exact addition has no order and no other law is used, so
  the finiteness of the inputs is not needed for the equality.

  The three frames are the generated frame runs (the reference's is its generated run with the result
  dropped); the idealisation rewrote no operation, so there is nothing to preserve.
-/
import proofs.«115462_j7146825581232_1_alg».proof.Defs
import proofs.«115462_j7146825581232_1_alg».proof.Proof.Gen.Kernel
import proofs.«115462_j7146825581232_1_alg».proof.Proof.Gen.Kernel.Skeleton
import proofs.«115462_j7146825581232_1_alg».proof.Proof.Gen.Kernel.Launch
import proofs.«115462_j7146825581232_1_alg».proof.Proof.Gen.Kernel.Points
import proofs.«115462_j7146825581232_1_alg».proof.Proof.Gen.Kernel.Frame
import proofs.«115462_j7146825581232_1_alg».proof.Proof.Gen.KernelIdeal
import proofs.«115462_j7146825581232_1_alg».proof.Proof.Gen.KernelIdeal.Skeleton
import proofs.«115462_j7146825581232_1_alg».proof.Proof.Gen.KernelIdeal.Launch
import proofs.«115462_j7146825581232_1_alg».proof.Proof.Gen.KernelIdeal.Points
import proofs.«115462_j7146825581232_1_alg».proof.Proof.Gen.KernelIdeal.Frame
import proofs.«115462_j7146825581232_1_alg».proof.Proof.Gen.ReferenceIdeal
import proofs.«115462_j7146825581232_1_alg».proof.Proof.Gen.Pre_finite_inputs
import proofs.«115462_j7146825581232_1_alg».proof.Proof.Gen.KernelIdeal.Value
import proofs.«115462_j7146825581232_1_alg».proof.Proof.Gen.ReferenceIdeal.Run
import proofs.«115462_j7146825581232_1_alg».proof.Proof.Gen.ReferenceIdeal.Read
import Idealize.ShloMosaic.Adequacy
import Idealize.ShloMosaic.Init
import proofs.«115462_j7146825581232_1_alg».proof.Proof.ArrayNorm
import proofs.«115462_j7146825581232_1_alg».proof.Proof.RefNorm
import proofs.«115462_j7146825581232_1_alg».proof.Proof.HostAgg

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the five arguments, both programs end with the result array at the
    row-normalised aggregate of those arguments. -/
theorem algebraic : Cert.algebraic_KernelIdeal_ReferenceIdeal := by
  intro m ρ m' ρ' _ hagree
  refine ⟨fun c => Cert.L2Rows.normalizeRows (Cert.KernelIdeal.Gen.V m c (Pipeline.arrRef Cert.KernelIdeal.spec0 0)),
    Cert.KernelIdeal.ArrayNorm.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefNorm.result_eq,
    (hagree c).1, (hagree c).2.1, (hagree c).2.2.1, (hagree c).2.2.2.1, (hagree c).2.2.2.2]
  show _ = Cert.L2Rows.normalizeRows (Cert.KernelIdeal.Gen.V m c (Pipeline.arrRef Cert.KernelIdeal.spec0 0))
  rw [Cert.KernelIdeal.HostAgg.entry_eq, Cert.KernelIdeal.HostAgg.agg_eq_ref]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
